-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x64 : Shape := ⟨3, ![8, 2048, 64]⟩
abbrev S8x2048x2048 : Shape := ⟨3, ![8, 2048, 2048]⟩
abbrev S64x64 : Shape := ⟨2, ![64, 64]⟩
abbrev S_ : Shape := ⟨0, ![]⟩

class Facts : Prop where
  bcast_S_S8x2048x64 : S_.BroadcastsInDim S8x2048x64 (![] : Fin 0 → Fin S8x2048x64.rank)
  reducesTo_S8x2048x64_S_d0_1_2 : S8x2048x64.ReducesTo [0, 1, 2] S_
  h_S_ : 0 < S_.numel
  bcast_S_S8x2048x2048 : S_.BroadcastsInDim S8x2048x2048 (![] : Fin 0 → Fin S8x2048x2048.rank)
  reducesTo_S8x2048x2048_S_d0_1_2 : S8x2048x2048.ReducesTo [0, 1, 2] S_
  bcast_S_S64x64 : S_.BroadcastsInDim S64x64 (![] : Fin 0 → Fin S64x64.rank)
  reducesTo_S64x64_S_d0_1 : S64x64.ReducesTo [0, 1] S_

variable [Facts]

def fn {F : FTy → Type} [FloatOps F] (main_arg0 : FVec F S8x2048x64 .f32) (main_arg1 : FVec F S8x2048x2048 .f32) (main_arg2 : FVec F S64x64 .f32) : IVec S_ 1 :=
  let main_v0 : FVec F S8x2048x64 .f32 := Host.absf main_arg0
  let main_cst : FVec F S_ .f32 := constant S_ .f32 0x7F800000#32
  let main_v1 : FVec F S8x2048x64 .f32 := broadcastInDim S8x2048x64 ![] bcast_S_S8x2048x64 main_cst
  let main_v2 : IVec S8x2048x64 1 := cmpf .olt main_v0 main_v1
  let main_c : IVec S_ 1 := constantI S_ 1 1#1
  let main_v3 : IVec S_ 1 := (fun x v => Host.reduce IntOp.andi x v reducesTo_S8x2048x64_S_d0_1_2 h_S_) main_v2 main_c
  let main_v4 : FVec F S8x2048x2048 .f32 := Host.absf main_arg1
  let main_cst_0 : FVec F S_ .f32 := constant S_ .f32 0x7F800000#32
  let main_v5 : FVec F S8x2048x2048 .f32 := broadcastInDim S8x2048x2048 ![] bcast_S_S8x2048x2048 main_cst_0
  let main_v6 : IVec S8x2048x2048 1 := cmpf .olt main_v4 main_v5
  let main_c_1 : IVec S_ 1 := constantI S_ 1 1#1
  let main_v7 : IVec S_ 1 := (fun x v => Host.reduce IntOp.andi x v reducesTo_S8x2048x2048_S_d0_1_2 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  main_v13
-- ==== Kernel.lean ====
abbrev S8x2048x64 : Shape := ⟨3, ![8, 2048, 64]⟩
abbrev S8x2048x2048 : Shape := ⟨3, ![8, 2048, 2048]⟩
abbrev S64x64 : Shape := ⟨2, ![64, 64]⟩
abbrev S1x2048x2048 : Shape := ⟨3, ![1, 2048, 2048]⟩
abbrev S1x2048x64 : Shape := ⟨3, ![1, 2048, 64]⟩
abbrev S2048x2048 : Shape := ⟨2, ![2048, 2048]⟩
abbrev S2048 : Shape := ⟨1, ![2048]⟩
abbrev S2048x1 : Shape := ⟨2, ![2048, 1]⟩
abbrev S2048x64 : Shape := ⟨2, ![2048, 64]⟩

abbrev nBuf : Space → Nat
  | .hbm => 4
  | .vmem => 7
  | .smem => 0
  | _ => 0

abbrev bufTy : (tb : Table) → Fin (tcTables nBuf tb) → BufTy
  | .hbm, ⟨0, _⟩ => ⟨S8x2048x64, .f32⟩
  | .hbm, ⟨1, _⟩ => ⟨S8x2048x2048, .f32⟩
  | .hbm, ⟨2, _⟩ => ⟨S64x64, .f32⟩
  | .hbm, ⟨3, _⟩ => ⟨S8x2048x64, .f32⟩
  | .local _ .vmem, ⟨0, _⟩ => ⟨S1x2048x2048, .f32⟩
  | .local _ .vmem, ⟨1, _⟩ => ⟨S1x2048x2048, .f32⟩
  | .local _ .vmem, ⟨2, _⟩ => ⟨S1x2048x64, .f32⟩
  | .local _ .vmem, ⟨3, _⟩ => ⟨S1x2048x64, .f32⟩
  | .local _ .vmem, ⟨4, _⟩ => ⟨S64x64, .f32⟩
  | .local _ .vmem, ⟨5, _⟩ => ⟨S1x2048x64, .f32⟩
  | .local _ .vmem, ⟨6, _⟩ => ⟨S1x2048x64, .f32⟩
  | _, _ => ⟨S8x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x2048x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S1x2048x2048_S1x2048x2048_0_0_0 : ∀ a, (![0, 0, 0] : Fin 3 → Nat) a + S1x2048x2048.size a ≤ S1x2048x2048.size a
  h_S1x2048x2048 : 0 < S1x2048x2048.numel
  shapeCasts_S1x2048x2048_S2048x2048 : S1x2048x2048.ShapeCasts S2048x2048
  reduces_S2048x2048_S2048 : S2048x2048.Reduces [1] S2048
  shapeCasts_S2048_S2048x1 : S2048.ShapeCasts S2048x1
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  broadcasts_S2048x1_S2048x64 : S2048x1.Broadcasts S2048x64
  inb_S64x64_S64x64_0_0 : ∀ a, (![0, 0] : Fin 2 → Nat) a + S64x64.size a ≤ S64x64.size a
  h_S64x64 : 0 < S64x64.numel
  shapeCasts_S2048x64_S1x2048x64 : S2048x64.ShapeCasts S1x2048x64
  dot_S2048x2048_S2048x64_S2048x64_1_0_0_1_n_n_wf : DotDims.WF S2048x2048 S2048x64 S2048x64 [1] [0] [0] [1] [] []
  dot_S2048x64_S64x64_S2048x64_1_0_0_1_n_n_wf : DotDims.WF S2048x64 S64x64 S2048x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x2048.size a ≤ S8x2048x2048.size a
  hwx0_0 : ∀ i : grid0.Coords, EltTy.bits .f32 = 32 ∨ (Rect.block (s := S8x2048x2048) S1x2048x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S8x2048x64.size a
  hwx0_1 : ∀ i : grid0.Coords, EltTy.bits .f32 = 32 ∨ (Rect.block (s := S8x2048x64) S1x2048x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x64.size a ≤ S8x2048x64.size a
  hwx0_3 : ∀ i : grid0.Coords, EltTy.bits .f32 = 32 ∨ (Rect.block (s := S8x2048x64) S1x2048x64.size (cc0_transform_3 i) (hinb0_3 i)).WholeWords (EltTy.packing .f32)

variable [Facts₀]

def dot_S2048x2048_S2048x64_S2048x64_1_0_0_1_n_n : DotDims S2048x2048 S2048x64 S2048x64 where
  lhsContracting := [1]
  rhsContracting := [0]
  lhsNonContracting := [0]
  rhsNonContracting := [1]
  lhsBatch := []
  rhsBatch := []
  wf := dot_S2048x2048_S2048x64_S2048x64_1_0_0_1_n_n_wf
def dot_S2048x64_S64x64_S2048x64_1_0_0_1_n_n : DotDims S2048x64 S64x64 S2048x64 where
  lhsContracting := [1]
  rhsContracting := [0]
  lhsNonContracting := [0]
  rhsNonContracting := [1]
  lhsBatch := []
  rhsBatch := []
  wf := dot_S2048x64_S64x64_S2048x64_1_0_0_1_n_n_wf

abbrev win0_0 : Pipeline.Window sig grid0 :=
  Pipeline.Window.ofSpec (Memref.whole main_arg1) S1x2048x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x2048x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x2048x64 : Shape := ⟨3, ![8, 2048, 64]⟩
abbrev S8x2048x2048 : Shape := ⟨3, ![8, 2048, 2048]⟩
abbrev S64x64 : Shape := ⟨2, ![64, 64]⟩
abbrev S_ : Shape := ⟨0, ![]⟩
abbrev S8x2048 : Shape := ⟨2, ![8, 2048]⟩
abbrev S8x2048x1 : Shape := ⟨3, ![8, 2048, 1]⟩
abbrev S8x1x2048 : Shape := ⟨3, ![8, 1, 2048]⟩

abbrev nBuf : Space → Nat
  | .hbm => 21
  | .vmem => 0
  | .smem => 0
  | _ => 0

abbrev bufTy : (tb : Table) → Fin (tcTables nBuf tb) → BufTy
  | .hbm, ⟨0, _⟩ => ⟨S8x2048x64, .f32⟩
  | .hbm, ⟨1, _⟩ => ⟨S8x2048x2048, .f32⟩
  | .hbm, ⟨2, _⟩ => ⟨S64x64, .f32⟩
  | .hbm, ⟨3, _⟩ => ⟨S_, .f32⟩
  | .hbm, ⟨4, _⟩ => ⟨S8x2048x2048, .f32⟩
  | .hbm, ⟨5, _⟩ => ⟨S8x2048x2048, .f32⟩
  | .hbm, ⟨6, _⟩ => ⟨S8x2048x2048, .f32⟩
  | .hbm, ⟨7, _⟩ => ⟨S_, .f32⟩
  | .hbm, ⟨8, _⟩ => ⟨S8x2048, .f32⟩
  | .hbm, ⟨9, _⟩ => ⟨S8x2048, .f32⟩
  | .hbm, ⟨10, _⟩ => ⟨S_, .f32⟩
  | .hbm, ⟨11, _⟩ => ⟨S8x2048, .f32⟩
  | .hbm, ⟨12, _⟩ => ⟨S8x2048, .f32⟩
  | .hbm, ⟨13, _⟩ => ⟨S8x2048x1, .f32⟩
  | .hbm, ⟨14, _⟩ => ⟨S8x2048x2048, .f32⟩
  | .hbm, ⟨15, _⟩ => ⟨S8x2048x2048, .f32⟩
  | .hbm, ⟨16, _⟩ => ⟨S8x1x2048, .f32⟩
  | .hbm, ⟨17, _⟩ => ⟨S8x2048x2048, .f32⟩
  | .hbm, ⟨18, _⟩ => ⟨S8x2048x2048, .f32⟩
  | .hbm, ⟨19, _⟩ => ⟨S8x2048x64, .f32⟩
  | .hbm, ⟨20, _⟩ => ⟨S8x2048x64, .f32⟩
  | _, _ => ⟨S8x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]

class Facts₀ : Prop where
  bcast_S_S8x2048x2048 : S_.BroadcastsInDim S8x2048x2048 (![] : Fin 0 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  bcast_S8x2048_S8x1x2048_0_2 : S8x2048.BroadcastsInDim S8x1x2048 (![0, 2] : Fin 2 → Fin S8x1x2048.rank)
  bcast_S8x1x2048_S8x2048x2048_0_1_2 : S8x1x2048.BroadcastsInDim S8x2048x2048 (![0, 1, 2] : Fin 3 → Fin S8x2048x2048.rank)
  dot_S8x2048x2048_S8x2048x64_S8x2048x64_2_1_1_2_0_0_wf : DotDims.WF S8x2048x2048 S8x2048x64 S8x2048x64 [2] [1] [1] [2] [0] [0]
  dot_S8x2048x64_S64x64_S8x2048x64_2_0_01_1_n_n_wf : DotDims.WF S8x2048x64 S64x64 S8x2048x64 [2] [0] [0, 1] [1] [] []

variable [Facts₀]

def dot_S8x2048x2048_S8x2048x64_S8x2048x64_2_1_1_2_0_0 : DotDims S8x2048x2048 S8x2048x64 S8x2048x64 where
  lhsContracting := [2]
  rhsContracting := [1]
  lhsNonContracting := [1]
  rhsNonContracting := [2]
  lhsBatch := [0]
  rhsBatch := [0]
  wf := dot_S8x2048x2048_S8x2048x64_S8x2048x64_2_1_1_2_0_0_wf
def dot_S8x2048x64_S64x64_S8x2048x64_2_0_01_1_n_n : DotDims S8x2048x64 S64x64 S8x2048x64 where
  lhsContracting := [2]
  rhsContracting := [0]
  lhsNonContracting := [0, 1]
  rhsNonContracting := [1]
  lhsBatch := []
  rhsBatch := []
  wf := dot_S8x2048x64_S64x64_S8x2048x64_2_0_01_1_n_n_wf

class Facts : Prop extends Facts₀ where

variable [Facts]
-- ==== Proof.LibERealSums.lean ====
/-
  Finite sums and maxima of real numbers inside the extended reals.

  The coercion of the reals into the extended reals carries a finite sum to the sum and a maximum to the maximum;
  and folding `max` from `-∞` over a nonempty finite family of reals gives a real. These are what turns a row
  statistic of finite inputs (a sum, a maximum, a log-sum-exp) into a real number, where the extended reals'
  failures of distributivity and cancellation at the infinities cannot occur.
-/
import Mathlib.Data.EReal.Basic
import Mathlib.Algebra.BigOperators.Group.Finset.Basic
import Mathlib.Data.Finset.Fold

noncomputable section

open scoped BigOperators

namespace Cert.Lib.ERealSums

/-- A finite sum of coerced reals is the coercion of the real sum. -/
theorem coe_sum_real {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The maximum of two coerced reals is the coercion of their maximum. -/
theorem coe_max_real (a b : ℝ) : max (a : EReal) (b : EReal) = ((max a b : ℝ) : EReal) :=
  (EReal.coe_strictMono.monotone.map_max).symm

/-- Folding `max` from `-∞` over a nonempty family of reals gives a real. -/
theorem fold_max_real {ι : Type*} (s : Finset ι) (hs : s.Nonempty) (a : ι → ℝ) :
    ∃ M : ℝ, s.fold max ⊥ (fun i => ((a i : ℝ) : EReal)) = (M : EReal) := by
  induction hs using Finset.Nonempty.cons_induction with
  | singleton i => exact ⟨a i, by rw [Finset.fold_singleton, max_bot_right]⟩
  | cons i s hi hs ih =>
    obtain ⟨M, hM⟩ := ih
    exact ⟨max (a i) M, by rw [Finset.fold_cons, hM, coe_max_real]⟩

end Cert.Lib.ERealSums

end
-- ==== Proof.Propagation.lean ====
/-
  Symmetric-normalised graph propagation, as a function of one graph's data.

  For one graph on N nodes with pairwise distances d, node features x (N × K) and a weight matrix w (K × O):
  the edge weight is e(n, m) = exp(γ · d(n, m)) for the fixed decay rate γ < 0, the degree of node n is
  deg(n) = Σ_m e(n, m), its inverse square root is s(n) = 1 / √deg(n), and the output is
      out(n, o) = Σ_f h(n, f) · w(f, o),   h = (D^{-1/2} E D^{-1/2}) x.
  The hidden layer h can be computed in two arrangements:
    * scale the features first and the aggregate afterwards:  hScaled(n, f) = s(n) · Σ_m e(n, m) · (s(m) · x(m, f));
    * normalise the edge weights first:                       hNormed(n, f) = Σ_m ((e(n, m) · s(n)) · s(m)) · x(m, f).
  On the extended reals the two agree as soon as the distances and the features are real numbers: then every edge
  weight is a positive real, every degree a positive real (N > 0), every s(n) a real, and pulling the factor s(n)
  out of a finite sum of reals is distributivity in ℝ. (At infinite entries distributivity can fail, so the
  finiteness of the data is used.) The weight matrix w is not touched: both outputs are the same sum over f of h · w.
-/
import Idealize.ShloMosaic.PureOps.Ideal
import Idealize.ShloMosaic.PureOps.Ideal.Laws
import Idealize.ShloMosaic.Lib.IdealHost
import proofs.«141549_j6777458393356_2_alg».proof.Proof.LibERealSums

noncomputable section

namespace Cert.Gcn

open Idealize.ShloMosaic
open scoped BigOperators

variable {N K O : ℕ}

/-- The decay rate γ: the single-precision number nearest to -1/5, as an extended real. -/
def decay : EReal := Ideal.ofBits .f32 0xBE4CCCCD#32

/-- The numerator of the inverse square root: the single-precision one. -/
def unit : EReal := Ideal.ofBits .f32 0x3F800000#32

/-- The edge weight e(n, m) = exp(γ · d(n, m)). -/
def edge (d : Fin N → Fin N → EReal) (n m : Fin N) : EReal := Ideal.exp (decay * d n m)

/-- The degree deg(n) = Σ_m e(n, m). -/
def degree (d : Fin N → Fin N → EReal) (n : Fin N) : EReal := ∑ m : Fin N, edge d n m

/-- s(n) = 1 / √deg(n). -/
def invSqrtDeg (d : Fin N → Fin N → EReal) (n : Fin N) : EReal := Ideal.div unit (Ideal.sqrt (degree d n))

/-- The hidden layer with the features scaled before the aggregation and the aggregate after it. -/
def hScaled (d : Fin N → Fin N → EReal) (x : Fin N → Fin K → EReal) (n : Fin N) (f : Fin K) : EReal :=
  invSqrtDeg d n * ∑ m : Fin N, edge d n m * (invSqrtDeg d m * x m f)

/-- The hidden layer with the edge weights normalised on both sides first. -/
def hNormed (d : Fin N → Fin N → EReal) (x : Fin N → Fin K → EReal) (n : Fin N) (f : Fin K) : EReal :=
  ∑ m : Fin N, ((edge d n m * invSqrtDeg d n) * invSqrtDeg d m) * x m f

/-- The output from the first arrangement. -/
def outScaled (d : Fin N → Fin N → EReal) (x : Fin N → Fin K → EReal) (w : Fin K → Fin O → EReal)
    (n : Fin N) (o : Fin O) : EReal := ∑ f : Fin K, hScaled d x n f * w f o

/-- The output from the second arrangement. -/
def outNormed (d : Fin N → Fin N → EReal) (x : Fin N → Fin K → EReal) (w : Fin K → Fin O → EReal)
    (n : Fin N) (o : Fin O) : EReal := ∑ f : Fin K, hNormed d x n f * w f o

/-- The decay rate is the real number -13421773 / 2^26. -/
theorem decay_eq : decay = (((-13421773 : ℝ) / 67108864 : ℝ) : EReal) := by
  unfold decay
  simp [Ideal.ofBits, Ideal.ieee, -EReal.coe_mul, -EReal.coe_neg]; norm_num

/-- The numerator is the real number one. -/
theorem unit_eq : unit = ((1 : ℝ) : EReal) := by
  unfold unit; rw [Ideal.ofBits_one_f32]; rfl

variable {d : Fin N → Fin N → EReal} {x : Fin N → Fin K → EReal}

/-- Over real distances every edge weight is a positive real. -/
theorem edge_real (hd : ∀ n m, ∃ r : ℝ, d n m = (r : EReal)) (n m : Fin N) :
    ∃ r : ℝ, 0 < r ∧ edge d n m = (r : EReal) := by
  obtain ⟨r, hr⟩ := hd n m
  refine ⟨Real.exp ((-13421773 : ℝ) / 67108864 * r), Real.exp_pos _, ?_⟩
  unfold edge
  rw [decay_eq, hr, ← EReal.coe_mul, Ideal.exp_coe]

/-- Over real distances, on a graph with at least one node, every degree is a positive real. -/
theorem degree_real (hN : 0 < N) (hd : ∀ n m, ∃ r : ℝ, d n m = (r : EReal)) (n : Fin N) :
    ∃ r : ℝ, 0 < r ∧ degree d n = (r : EReal) := by
  choose a hapos ha using fun m => edge_real hd n m
  refine ⟨∑ m : Fin N, a m, ?_, ?_⟩
  · haveI : Nonempty (Fin N) := ⟨⟨0, hN⟩⟩
    exact Finset.sum_pos (fun m _ => hapos m) Finset.univ_nonempty
  · unfold degree
    rw [← Cert.Lib.ERealSums.coe_sum_real]
    exact Finset.sum_congr rfl fun m _ => ha m

/-- So every inverse square root of a degree is a real. -/
theorem invSqrtDeg_real (hN : 0 < N) (hd : ∀ n m, ∃ r : ℝ, d n m = (r : EReal)) (n : Fin N) :
    ∃ r : ℝ, invSqrtDeg d n = (r : EReal) := by
  obtain ⟨r, hr, hdeg⟩ := degree_real hN hd n
  have hs : Real.sqrt r ≠ 0 := (Real.sqrt_pos.mpr hr).ne'
  refine ⟨1 * (1 / Real.sqrt r), ?_⟩
  unfold invSqrtDeg
  rw [hdeg, Ideal.sqrt_coe, if_neg (not_lt.mpr hr.le), Ideal.div_coe hs, unit_eq, ← EReal.coe_mul]

/-- The two arrangements of the hidden layer agree on real data. -/
theorem hScaled_eq_hNormed (hN : 0 < N) (hd : ∀ n m, ∃ r : ℝ, d n m = (r : EReal))
    (hx : ∀ m f, ∃ r : ℝ, x m f = (r : EReal)) (n : Fin N) (f : Fin K) :
    hScaled d x n f = hNormed d x n f := by
  choose a _ ha using fun m => edge_real hd n m
  choose s hs using fun m => invSqrtDeg_real hN hd m
  choose xr hxr using fun m => hx m f
  unfold hScaled hNormed
  have el : ∀ m, edge d n m * (invSqrtDeg d m * x m f) = ((a m * (s m * xr m) : ℝ) : EReal) := fun m => by
    rw [ha m, hs m, hxr m, ← EReal.coe_mul, ← EReal.coe_mul]
  have er : ∀ m, ((edge d n m * invSqrtDeg d n) * invSqrtDeg d m) * x m f
      = (((a m * s n) * s m * xr m : ℝ) : EReal) := fun m => by
    rw [ha m, hs m, hs n, hxr m, ← EReal.coe_mul, ← EReal.coe_mul, ← EReal.coe_mul]
  rw [Finset.sum_congr rfl fun m _ => el m, Finset.sum_congr rfl fun m _ => er m,
    Cert.Lib.ERealSums.coe_sum_real, Cert.Lib.ERealSums.coe_sum_real, hs n, ← EReal.coe_mul, Finset.mul_sum]
  exact congrArg _ (Finset.sum_congr rfl fun m _ => by ring)

/-- Hence the two outputs agree on real distances and features, whatever the weights. -/
theorem outScaled_eq_outNormed (hN : 0 < N) (hd : ∀ n m, ∃ r : ℝ, d n m = (r : EReal))
    (hx : ∀ m f, ∃ r : ℝ, x m f = (r : EReal)) (w : Fin K → Fin O → EReal) (n : Fin N) (o : Fin O) :
    outScaled d x w n o = outNormed d x w n o := by
  unfold outScaled outNormed
  exact Finset.sum_congr rfl fun f _ => by rw [hScaled_eq_hNormed hN hd hx n f]

end Cert.Gcn

end
-- ==== Proof.LibPlainDot.lean ====
/-
  A plain matrix product read at an index.

  The dimension numbers of an [a, c] × [c, b] → [a, b] product contract the left operand's axis 1 with the right
  operand's axis 0 and have no batch axis. At result index (p, q) and contraction position k the left operand is
  read at (p, k) and the right operand at (k, q), so the sum over the contraction shape's one-axis index set is the
  sum over k : Fin c of lhs (p, k) * rhs (k, q) — in any commutative additive monoid with a product, the extended
  reals included. The statement is over variable extents; a printed record with these six lists is this one by
  reflexivity.
-/
import Idealize.ShloMosaic.Lib.ValueIdx
import Idealize.ShloMosaic.PureOps.Ideal.Laws

noncomputable section

namespace Cert.Lib.PlainDot

open Idealize.ShloMosaic Idealize.ShloMosaic.ValueIdx
open scoped BigOperators

variable {a c b : Nat}

/-- The dimension numbers of the plain product [a, c] × [c, b] → [a, b]. -/
abbrev dims (wf : DotDims.WF ⟨2, ![a, c]⟩ ⟨2, ![c, b]⟩ ⟨2, ![a, b]⟩ [1] [0] [0] [1] [] []) :
    DotDims ⟨2, ![a, c]⟩ ⟨2, ![c, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, c]⟩ ⟨2, ![c, b]⟩ ⟨2, ![a, b]⟩ [1] [0] [0] [1] [] [])

/-- The left operand's row is the result's row. -/
theorem lhs_row (i : (⟨2, ![a, b]⟩ : Shape).Idx) (k : (dims wf).contr.Idx) :
    ((dims wf).lhsIdx i k 0).val = (i 0).val := by
  unfold DotDims.lhsIdx
  rw [dif_neg (show ¬(0 : Fin 2) ∈ (dims wf).lhsBatch from List.not_mem_nil),
    dif_pos (show (0 : Fin 2) ∈ (dims wf).lhsNonContracting from List.mem_singleton.mpr rfl)]
  rfl

/-- The left operand's column is the contraction position. -/
theorem lhs_col (i : (⟨2, ![a, b]⟩ : Shape).Idx) (k : (dims wf).contr.Idx) :
    ((dims wf).lhsIdx i k 1).val = (k ⟨0, Nat.one_pos⟩).val :=
  (dims wf).lhsIdx_val_of_single rfl i k

/-- The right operand's row is the contraction position. -/
theorem rhs_row (i : (⟨2, ![a, b]⟩ : Shape).Idx) (k : (dims wf).contr.Idx) :
    ((dims wf).rhsIdx i k 0).val = (k ⟨0, Nat.one_pos⟩).val :=
  (dims wf).rhsIdx_val_of_single rfl i k

/-- The right operand's column is the result's column. -/
theorem rhs_col (i : (⟨2, ![a, b]⟩ : Shape).Idx) (k : (dims wf).contr.Idx) :
    ((dims wf).rhsIdx i k 1).val = (i 1).val := by
  unfold DotDims.rhsIdx
  rw [dif_neg (show ¬(1 : Fin 2) ∈ (dims wf).rhsBatch from List.not_mem_nil),
    dif_pos (show (1 : Fin 2) ∈ (dims wf).rhsNonContracting from List.mem_singleton.mpr rfl)]
  rfl

/-- The product's sum at (p, q): over k, the left operand at (p, k) times the right operand at (k, q). -/
theorem sum_apply {M : Type*} [AddCommMonoid M] [Mul M] (lhs : (⟨2, ![a, c]⟩ : Shape).Idx → M)
    (rhs : (⟨2, ![c, b]⟩ : Shape).Idx → M) (p : Fin a) (q : Fin b) :
    ∑ k : (dims wf).contr.Idx, lhs ((dims wf).lhsIdx (ix2 p q) k) * rhs ((dims wf).rhsIdx (ix2 p q) k)
      = ∑ k : Fin c, lhs (ix2 p k) * rhs (ix2 k q) := by
  rw [← Equiv.sum_comp (contrEquiv1 (dims wf) c rfl rfl).symm]
  refine Finset.sum_congr rfl fun k _ => ?_
  have hk := contrEquiv1_symm_val (dims wf) c rfl rfl k
  have el : (dims wf).lhsIdx (ix2 p q) ((contrEquiv1 (dims wf) c rfl rfl).symm k) = ix2 p k :=
    funext fun ax => Fin.ext (by
      match ax with
      | ⟨0, _⟩ => exact lhs_row wf _ _
      | ⟨1, _⟩ => exact (lhs_col wf _ _).trans hk)
  have er : (dims wf).rhsIdx (ix2 p q) ((contrEquiv1 (dims wf) c rfl rfl).symm k) = ix2 k q :=
    funext fun ax => Fin.ext (by
      match ax with
      | ⟨0, _⟩ => exact (rhs_row wf _ _).trans hk
      | ⟨1, _⟩ => exact rhs_col wf _ _)
  rw [el, er]

/-- A kernel's product into a zero accumulator, at the exact values, read at (p, q). -/
theorem matmul_zero_apply {φ₁ φ₂ : FTy} (prec : Option ContractPrecision) (lhs : FVec Ideal ⟨2, ![a, c]⟩ φ₁)
    (rhs : FVec Ideal ⟨2, ![c, b]⟩ φ₂) (p : Fin a) (q : Fin b) :
    matmul (dims wf) prec lhs rhs (constant ⟨2, ![a, b]⟩ .f32 0x00000000#32) (ix2 p q)
      = ∑ k : Fin c, lhs (ix2 p k) * rhs (ix2 k q) :=
  (Ideal.matmul_constant_zero_apply (dims wf) prec lhs rhs (ix2 p q)).trans (sum_apply wf lhs rhs p q)

/-- The host's product, at the exact values, read at (p, q). -/
theorem dotGeneral_apply {φ₁ φ₂ : FTy} (prec : Option ContractPrecision) (lhs : FVec Ideal ⟨2, ![a, c]⟩ φ₁)
    (rhs : FVec Ideal ⟨2, ![c, b]⟩ φ₂) (p : Fin a) (q : Fin b) :
    Host.dotGeneral (dims wf) prec lhs rhs (ix2 p q) = ∑ k : Fin c, lhs (ix2 p k) * rhs (ix2 k q) :=
  (Ideal.dotGeneral_apply (dims wf) prec _ lhs rhs (ix2 p q)).trans (sum_apply wf lhs rhs p q)

end Cert.Lib.PlainDot

end
-- ==== Proof.LibKeepdims.lean ====
/-
  Keepdims columns read at an index.

  A reduction along the rows of an `a × b` array that keeps the reduced axis leaves an `a × 1` column: the length-`a`
  vector of row statistics cast to that shape holds, at `(i, ·)`, the vector's entry `i` (both have row-major position
  `i`); and the column broadcast back along the rows holds, at `(p, c)`, the column's entry `p` (the unit axis is read at
  0, the other at the same coordinate). For any element type and any extents.
-/
import Idealize.ShloMosaic.Lib.Pipeline.Value
import Idealize.ShloMosaic.Lib.ValueIdx

noncomputable section

namespace Cert.Lib.Keepdims

open Idealize.ShloMosaic Idealize.ShloMosaic.ValueIdx

/-- A length-`a` vector cast to an `a × 1` column reads, at `(i, ·)`, the vector at `i`. -/
theorem col_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast along its rows reads, at `(p, c)`, the column at `p`. -/
theorem bcastCol_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Keepdims

end
-- ==== Proof.LibUnitAxis.lean ====
/-
  A leading unit axis read at an index.

  A block of shape [1, h, w] and the matrix of shape [h, w] with the same entries in row-major order: viewing the
  block as the matrix reads (0, r, c) at (r, c), and storing the matrix as a block reads (r, c) at (·, r, c). For any
  element type and any extents.
-/
import Idealize.ShloMosaic.Lib.Pipeline.Value
import Idealize.ShloMosaic.Lib.ValueIdx

noncomputable section

namespace Cert.Lib.UnitAxis

open Idealize.ShloMosaic Idealize.ShloMosaic.ValueIdx

/-- A block [1, h, w] viewed [h, w] reads (0, r, c) at (r, c). -/
theorem drop_apply {h w : Nat} {α : Type} (v : (⟨3, ![1, h, w]⟩ : Shape).Idx → α)
    (hc : (⟨3, ![1, h, w]⟩ : Shape).ShapeCasts ⟨2, ![h, w]⟩) (r : Fin h) (c : Fin w) :
    shapeCast ⟨2, ![h, w]⟩ v hc (ix2 r c) = v (ix3 (0 : Fin 1) r c) :=
  shapeCast_apply v hc _ _ (by
    rw [Shape.rowMajor_val_three, Shape.rowMajor_val_two]
    show (0 * h + r.val) * w + c.val = r.val * w + c.val
    rw [Nat.zero_mul, Nat.zero_add])

/-- An [h, w] value stored as a block [1, h, w] reads (r, c) at (u, r, c). -/
theorem add_apply {h w : Nat} {α : Type} (v : (⟨2, ![h, w]⟩ : Shape).Idx → α)
    (hc : (⟨2, ![h, w]⟩ : Shape).ShapeCasts ⟨3, ![1, h, w]⟩) (u : Fin 1) (r : Fin h) (c : Fin w) :
    shapeCast ⟨3, ![1, h, w]⟩ v hc (ix3 u r c) = v (ix2 r c) :=
  shapeCast_apply v hc _ _ (by
    have hu : u.val = 0 := by omega
    rw [Shape.rowMajor_val_three, Shape.rowMajor_val_two]
    show r.val * w + c.val = (u.val * h + r.val) * w + c.val
    rw [hu, Nat.zero_mul, Nat.zero_add])

end Cert.Lib.UnitAxis

end
-- ==== Proof.BodyValue.lean ====
/-
  What the kernel body computes from one graph's blocks, entry by entry.

  At a grid point the body holds one graph: its distance block x0 (1 × N × N), its feature block x1 (1 × N × K)
  and the weight matrix x2 (K × O), with N = 2048 and K = O = 64. Reading the leading unit axis away, these are the
  data d(n, m) = x0(0, n, m), x(m, f) = x1(0, m, f), w(f, o) = x2(f, o) of the propagation. The body forms, in order:
  the edge weights exp(γ · d) as an N × N array; their row sums (the degrees), kept as an N × 1 column; the column of
  inverse square roots 1 / √deg; the features scaled row by row by that column; the product of the edge weights with
  the scaled features (a sum over the N neighbours); that product scaled row by row again (the hidden layer with the
  features scaled first); and the product of the hidden layer with the weights (a sum over the K features), stored
  with the unit axis put back. Each stage read at an index is the corresponding quantity of the propagation, so the
  stored block at (·, n, o) is the output of the first arrangement at (n, o).
-/
import proofs.«141549_j6777458393356_2_alg».proof.Proof.Gen.KernelIdeal.Skeleton
import proofs.«141549_j6777458393356_2_alg».proof.Proof.Propagation
import proofs.«141549_j6777458393356_2_alg».proof.Proof.LibPlainDot
import proofs.«141549_j6777458393356_2_alg».proof.Proof.LibKeepdims
import proofs.«141549_j6777458393356_2_alg».proof.Proof.LibUnitAxis
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx
open scoped BigOperators

variable (x0 : Vec Ideal S1x2048x2048 .f32) (x1 : Vec Ideal S1x2048x64 .f32) (x2 : Vec Ideal S64x64 .f32)

/-- The graph's distances d(n, m), read off the distance block. -/
def dist : Fin 2048 → Fin 2048 → EReal := fun n m => x0 (ix3 (0 : Fin 1) n m)

/-- The graph's features x(m, f), read off the feature block. -/
def feat : Fin 2048 → Fin 64 → EReal := fun m f => x1 (ix3 (0 : Fin 1) m f)

/-- The weights w(f, o). -/
def wts : Fin 64 → Fin 64 → EReal := fun f o => x2 (ix2 f o)

/-- The N × N array of edge weights the body forms. -/
def edges : FVec Ideal S2048x2048 .f32 :=
  exp (mulf (broadcast S2048x2048 (Scalar.ofBits .f32 0xBE4CCCCD#32)) (shapeCast S2048x2048 x0 shapeCasts_S1x2048x2048_S2048x2048))

/-- Its row sums. -/
def degrees : FVec Ideal S2048 .f32 :=
  multiReduction .add [1] S2048 (edges x0) 0x00000000#32 reduces_S2048x2048_S2048 (.inl rfl) rfl

/-- The column of inverse square roots of the degrees. -/
def invCol : FVec Ideal S2048x1 .f32 :=
  divf (broadcast S2048x1 (Scalar.ofBits .f32 0x3F800000#32)) (sqrt (shapeCast S2048x1 (degrees x0) shapeCasts_S2048_S2048x1))

/-- The features scaled row by row. -/
def scaledFeat : FVec Ideal S2048x64 .f32 :=
  mulf (broadcastTo S2048x64 (invCol x0) broadcasts_S2048x1_S2048x64) (shapeCast S2048x64 x1 shapeCasts_S1x2048x64_S2048x64)

/-- The edge weights times the scaled features. -/
def aggregate : FVec Ideal S2048x64 .f32 :=
  matmul (φ₁ := .f32) (φ₂ := .f32) dot_S2048x2048_S2048x64_S2048x64_1_0_0_1_n_n none (edges x0) (scaledFeat x0 x1) (constant S2048x64 .f32 0x00000000#32)

/-- The aggregate scaled row by row: the hidden layer. -/
def hidden : FVec Ideal S2048x64 .f32 :=
  mulf (broadcastTo S2048x64 (invCol x0) broadcasts_S2048x1_S2048x64) (aggregate x0 x1)

/-- The hidden layer times the weights. -/
def result : FVec Ideal S2048x64 .f32 :=
  matmul (φ₁ := .f32) (φ₂ := .f32) dot_S2048x64_S64x64_S2048x64_1_0_0_1_n_n none (hidden x0 x1) x2 (constant S2048x64 .f32 0x00000000#32)

/-- The body's stored value is the result with the unit axis put back. -/
theorem payload_eq : k0_pay1 (F := Ideal) x0 x1 x2 = shapeCast S1x2048x64 (result x0 x1 x2) shapeCasts_S2048x64_S1x2048x64 := rfl

/-- The edge-weight array at (n, m) is e(n, m). -/
theorem edges_apply (n m : Fin 2048) : edges x0 (ix2 n m) = Cert.Gcn.edge (dist x0) n m :=
  congrArg (fun v => Ideal.exp (Cert.Gcn.decay * v)) (Cert.Lib.UnitAxis.drop_apply x0 shapeCasts_S1x2048x2048_S2048x2048 n m)

/-- The row sum at n is deg(n). -/
theorem degrees_apply (n : Fin 2048) : degrees x0 (ix1 n) = Cert.Gcn.degree (dist x0) n := by
  refine (Ideal.multiReduction_add_single (edges x0) 0x00000000#32 reduces_S2048x2048_S2048 (.inl rfl) rfl (ix1 n)).trans ?_
  exact Finset.sum_congr rfl fun m _ =>
    (congrArg (edges x0) (funext fun a => Fin.ext (by match a with | ⟨0, _⟩ => rfl | ⟨1, _⟩ => rfl))).trans (edges_apply x0 n m)

/-- The column at (n, ·) is s(n). -/
theorem invCol_apply (n : Fin 2048) (u : Fin 1) : invCol x0 (ix2 n u) = Cert.Gcn.invSqrtDeg (dist x0) n :=
  congrArg (fun v => Ideal.div Cert.Gcn.unit (Ideal.sqrt v))
    ((Cert.Lib.Keepdims.col_apply (degrees x0) shapeCasts_S2048_S2048x1 n u).trans (degrees_apply x0 n))

/-- The scaled features at (m, f) are s(m) · x(m, f). -/
theorem scaledFeat_apply (m : Fin 2048) (f : Fin 64) :
    scaledFeat x0 x1 (ix2 m f) = Cert.Gcn.invSqrtDeg (dist x0) m * feat x1 m f :=
  congrArg₂ (· * ·)
    ((Cert.Lib.Keepdims.bcastCol_apply (invCol x0) broadcasts_S2048x1_S2048x64 m f).trans (invCol_apply x0 m 0))
    (Cert.Lib.UnitAxis.drop_apply x1 shapeCasts_S1x2048x64_S2048x64 m f)

/-- The aggregate at (n, f) is Σ_m e(n, m) · (s(m) · x(m, f)). -/
theorem aggregate_apply (n : Fin 2048) (f : Fin 64) :
    aggregate x0 x1 (ix2 n f)
      = ∑ m : Fin 2048, Cert.Gcn.edge (dist x0) n m * (Cert.Gcn.invSqrtDeg (dist x0) m * feat x1 m f) := by
  refine (Cert.Lib.PlainDot.matmul_zero_apply (φ₁ := .f32) (φ₂ := .f32) dot_S2048x2048_S2048x64_S2048x64_1_0_0_1_n_n_wf none (edges x0) (scaledFeat x0 x1) n f).trans ?_
  exact Finset.sum_congr rfl fun m _ => congrArg₂ (· * ·) (edges_apply x0 n m) (scaledFeat_apply x0 x1 m f)

/-- The hidden layer at (n, f) is the first arrangement's. -/
theorem hidden_apply (n : Fin 2048) (f : Fin 64) :
    hidden x0 x1 (ix2 n f) = Cert.Gcn.hScaled (dist x0) (feat x1) n f :=
  congrArg₂ (· * ·)
    ((Cert.Lib.Keepdims.bcastCol_apply (invCol x0) broadcasts_S2048x1_S2048x64 n f).trans (invCol_apply x0 n 0))
    (aggregate_apply x0 x1 n f)

/-- The result at (n, o) is the first arrangement's output. -/
theorem result_apply (n : Fin 2048) (o : Fin 64) :
    result x0 x1 x2 (ix2 n o) = Cert.Gcn.outScaled (dist x0) (feat x1) (wts x2) n o := by
  refine (Cert.Lib.PlainDot.matmul_zero_apply (φ₁ := .f32) (φ₂ := .f32) dot_S2048x64_S64x64_S2048x64_1_0_0_1_n_n_wf none (hidden x0 x1) x2 n o).trans ?_
  exact Finset.sum_congr rfl fun f _ => congrArg (· * x2 (ix2 f o)) (hidden_apply x0 x1 n f)

/-- The stored block at (·, n, o) is the first arrangement's output at (n, o). -/
theorem payload_apply (u : Fin 1) (n : Fin 2048) (o : Fin 64) :
    k0_pay1 (F := Ideal) x0 x1 x2 (ix3 u n o) = Cert.Gcn.outScaled (dist x0) (feat x1) (wts x2) n o :=
  (congrFun (payload_eq x0 x1 x2) (ix3 u n o)).trans
    ((Cert.Lib.UnitAxis.add_apply (result x0 x1 x2) shapeCasts_S2048x64_S1x2048x64 u n o).trans (result_apply x0 x1 x2 n o))

end Cert.KernelIdeal.Body

end
-- ==== Proof.Batched.lean ====
/-
  The propagation over a batch of eight graphs, as one function of the three argument arrays.

  The arguments are the features X (8 × 2048 × 64), the distances D (8 × 2048 × 2048) and the weights W (64 × 64).
  Graph b has distances d(n, m) = D(b, n, m) and features x(m, f) = X(b, m, f); the weights are shared. The result at
  (b, n, o) is graph b's output at (n, o), in either arrangement of the hidden layer; on real distances and features
  the two whole-array functions are equal.
-/
import proofs.«141549_j6777458393356_2_alg».proof.Proof.Propagation
import Idealize.ShloMosaic.Lib.ValueIdx

noncomputable section

namespace Cert.Gcn

open Idealize.ShloMosaic Idealize.ShloMosaic.ValueIdx

/-- Graph b's distances. -/
def distOf (D : (⟨3, ![8, 2048, 2048]⟩ : Shape).Idx → EReal) (b : Fin 8) : Fin 2048 → Fin 2048 → EReal :=
  fun n m => D (ix3 b n m)

/-- Graph b's features. -/
def featOf (X : (⟨3, ![8, 2048, 64]⟩ : Shape).Idx → EReal) (b : Fin 8) : Fin 2048 → Fin 64 → EReal :=
  fun m f => X (ix3 b m f)

/-- The shared weights. -/
def wtsOf (W : (⟨2, ![64, 64]⟩ : Shape).Idx → EReal) : Fin 64 → Fin 64 → EReal := fun f o => W (ix2 f o)

/-- The batch's result with the features scaled before the aggregation. -/
def batchScaled (X : (⟨3, ![8, 2048, 64]⟩ : Shape).Idx → EReal) (D : (⟨3, ![8, 2048, 2048]⟩ : Shape).Idx → EReal)
    (W : (⟨2, ![64, 64]⟩ : Shape).Idx → EReal) : (⟨3, ![8, 2048, 64]⟩ : Shape).Idx → EReal :=
  fun i => outScaled (distOf D (i 0)) (featOf X (i 0)) (wtsOf W) (i 1) (i 2)

/-- The batch's result with the edge weights normalised first. -/
def batchNormed (X : (⟨3, ![8, 2048, 64]⟩ : Shape).Idx → EReal) (D : (⟨3, ![8, 2048, 2048]⟩ : Shape).Idx → EReal)
    (W : (⟨2, ![64, 64]⟩ : Shape).Idx → EReal) : (⟨3, ![8, 2048, 64]⟩ : Shape).Idx → EReal :=
  fun i => outNormed (distOf D (i 0)) (featOf X (i 0)) (wtsOf W) (i 1) (i 2)

/-- On real distances and features the two are one function. -/
theorem batchScaled_eq_batchNormed (X : (⟨3, ![8, 2048, 64]⟩ : Shape).Idx → EReal)
    (D : (⟨3, ![8, 2048, 2048]⟩ : Shape).Idx → EReal) (W : (⟨2, ![64, 64]⟩ : Shape).Idx → EReal)
    (hX : ∀ i, ∃ r : ℝ, X i = (r : EReal)) (hD : ∀ i, ∃ r : ℝ, D i = (r : EReal)) :
    batchScaled X D W = batchNormed X D W :=
  funext fun i => outScaled_eq_outNormed (by decide) (fun n m => hD (ix3 (i 0) n m)) (fun m f => hX (ix3 (i 0) m f))
    (wtsOf W) (i 1) (i 2)

end Cert.Gcn

end
-- ==== Proof.KernelValue.lean ====
/-
  From the kernel's blocks to its result array.

  The grid has one point per graph: at point t every window's block index along the leading axis is t and zero
  along the others (the weights' block is the whole matrix at every point). So the distance block at point t,
  read at (0, n, m), is the distance array at (t, n, m); likewise the feature block; and the output block at
  (·, n, o) lands at (t, n, o) of the result array. By the body's value at an index, what point t writes back is
  block t of the batch function (features scaled first) of the three argument arrays. The eight blocks cover the
  result array — entry (b, n, o) lies in the block of point b — so after the run the array is that function.
-/
import proofs.«141549_j6777458393356_2_alg».proof.Proof.Gen.KernelIdeal.Value
import proofs.«141549_j6777458393356_2_alg».proof.Proof.BodyValue
import proofs.«141549_j6777458393356_2_alg».proof.Proof.Batched
import Idealize.ShloMosaic.Lib.Pipeline.Value

noncomputable section

namespace Cert.KernelIdeal.ArrayValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zeros3 : (![0, 0, 0] : Fin 3 → Nat) = fun _ => 0 := funext fun a => by fin_cases a <;> rfl
theorem zeros2 : (![0, 0] : Fin 2 → Nat) = fun _ => 0 := funext fun a => by fin_cases a <;> rfl

/-- The block indices at every grid point, decided over the eight points: the leading index of the three batched
    windows is the point, every other index is zero. -/
theorem block_indices : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- The graph a grid point works on. -/
def graphOf (t : Fin cfg0.N) : Fin 8 := ⟨t.val, lt_of_lt_of_eq t.isLt N_0⟩

/-- The distance block of point t at (0, n, m) is the distance array at (t, n, m). -/
theorem dist_block (c : Dev nD) (t : Fin cfg0.N) (n k : Fin 2048) :
    iblk m c 0 t (ix3 (0 : Fin 1) n k) = V m c main_arg1 (ix3 (graphOf t) n k) := by
  obtain ⟨e0, e1, e2, -⟩ := block_indices t
  show V m c main_arg1 (((cfg0.win 0).blk t).view.emb (ix3 (0 : Fin 1) n k)) = V m c main_arg1 (ix3 (graphOf t) n k)
  refine congrArg (V m c main_arg1) (funext fun a => Fin.ext ?_)
  match a with
  | ⟨0, _⟩ => show win0_0.index t (0 : Fin 3) * 1 + 1 * 0 = t.val; omega
  | ⟨1, _⟩ => show win0_0.index t (1 : Fin 3) * 2048 + 1 * n.val = n.val; omega
  | ⟨2, _⟩ => show win0_0.index t (2 : Fin 3) * 2048 + 1 * k.val = k.val; omega

/-- The feature block of point t at (0, k, f) is the feature array at (t, k, f). -/
theorem feat_block (c : Dev nD) (t : Fin cfg0.N) (k : Fin 2048) (f : Fin 64) :
    iblk m c 1 t (ix3 (0 : Fin 1) k f) = V m c main_arg0 (ix3 (graphOf t) k f) := by
  obtain ⟨-, -, -, e0, e1, e2, -⟩ := block_indices t
  show V m c main_arg0 (((cfg0.win 1).blk t).view.emb (ix3 (0 : Fin 1) k f)) = V m c main_arg0 (ix3 (graphOf t) k f)
  refine congrArg (V m c main_arg0) (funext fun a => Fin.ext ?_)
  match a with
  | ⟨0, _⟩ => show win0_1.index t (0 : Fin 3) * 1 + 1 * 0 = t.val; omega
  | ⟨1, _⟩ => show win0_1.index t (1 : Fin 3) * 2048 + 1 * k.val = k.val; omega
  | ⟨2, _⟩ => show win0_1.index t (2 : Fin 3) * 64 + 1 * f.val = f.val; omega

/-- The weight block at every point is the weight matrix. -/
theorem wts_block (c : Dev nD) (t : Fin cfg0.N) (f o : Fin 64) :
    iblk m c 2 t (ix2 f o) = V m c main_arg2 (ix2 f o) := by
  obtain ⟨-, -, -, -, -, -, e0, e1, -⟩ := block_indices t
  show V m c main_arg2 (((cfg0.win 2).blk t).view.emb (ix2 f o)) = V m c main_arg2 (ix2 f o)
  refine congrArg (V m c main_arg2) (funext fun a => Fin.ext ?_)
  match a with
  | ⟨0, _⟩ => show win0_2.index t (0 : Fin 2) * 64 + 1 * f.val = f.val; omega
  | ⟨1, _⟩ => show win0_2.index t (1 : Fin 2) * 64 + 1 * o.val = o.val; omega

/-- The output block of point t at (·, n, o) sits at (t, n, o) of the result array. -/
theorem out_block (t : Fin cfg0.N) (u : Fin 1) (n : Fin 2048) (o : Fin 64) :
    ((cfg0.win 3).blk t).view.emb (ix3 u n o) = (ix3 (graphOf t) n o : S8x2048x64.Idx) := by
  obtain ⟨-, -, -, -, -, -, -, -, e0, e1, e2⟩ := block_indices t
  have hu : u.val = 0 := by omega
  funext a; apply Fin.ext
  match a with
  | ⟨0, _⟩ => show win0_3.index t (0 : Fin 3) * 1 + 1 * u.val = t.val; omega
  | ⟨1, _⟩ => show win0_3.index t (1 : Fin 3) * 2048 + 1 * n.val = n.val; omega
  | ⟨2, _⟩ => show win0_3.index t (2 : Fin 3) * 64 + 1 * o.val = o.val; omega

/-- What point t writes back is block t of the batch function of the argument arrays. -/
theorem flushed_eq (c : Dev nD) (t : Fin cfg0.N) :
    (dats m 0 c).flushed 3 t
      = ((cfg0.win 3).blk t).view.read (Elt Ideal)
          (Cert.Gcn.batchScaled (V m c main_arg0) (V m c main_arg1) (V m c main_arg2)) := by
  rw [Cert.KernelIdeal.Value.flushed3]
  unfold out0_3
  rw [View.canon_unit_zero zeros3]
  simp only [View.ld_unit_zero (S := S1x2048x2048) zeros3, View.ld_unit_zero (S := S1x2048x64) zeros3,
    View.ld_unit_zero (S := S64x64) zeros2]
  funext j
  obtain ⟨u, n, o, rfl⟩ : ∃ (u : Fin 1) (n : Fin 2048) (o : Fin 64), j = ix3 u n o := ⟨j 0, j 1, j 2, eq_ix3 j⟩
  show k0_pay1 (F := Ideal) (iblk m c 0 t) (iblk m c 1 t) (iblk m c 2 t) (ix3 u n o)
    = Cert.Gcn.batchScaled (V m c main_arg0) (V m c main_arg1) (V m c main_arg2) (((cfg0.win 3).blk t).view.emb (ix3 u n o))
  refine (Cert.KernelIdeal.Body.payload_apply (iblk m c 0 t) (iblk m c 1 t) (iblk m c 2 t) u n o).trans ?_
  rw [out_block t u n o]
  have hd : Cert.KernelIdeal.Body.dist (iblk m c 0 t) = Cert.Gcn.distOf (V m c main_arg1) (graphOf t) :=
    funext fun n => funext fun k => dist_block m c t n k
  have hf : Cert.KernelIdeal.Body.feat (iblk m c 1 t) = Cert.Gcn.featOf (V m c main_arg0) (graphOf t) :=
    funext fun k => funext fun f => feat_block m c t k f
  have hw : Cert.KernelIdeal.Body.wts (iblk m c 2 t) = Cert.Gcn.wtsOf (V m c main_arg2) :=
    funext fun f => funext fun o => wts_block m c t f o
  rw [hd, hf, hw]
  rfl

/-- An index of the result array is in point t's block iff each coordinate is in the block's range on its axis. -/
theorem mem_block (t : Fin cfg0.N) (i : S8x2048x64.Idx) :
    i ∈ ((cfg0.win 3).blk t).view.set ↔ ∀ a : Fin 3, win0_3.index t a * S1x2048x64.size a ≤ (i a).val
      ∧ (i a).val < win0_3.index t a * S1x2048x64.size a + S1x2048x64.size a := by
  show i ∈ ((View.whole main_v0).slice (win0_3.rect t)).set ↔ _
  rw [View.set_slice_whole, Rect.mem_set_unit]
  exact Iff.rfl

/-- Every entry of the result array is written back by the point of its graph. -/
theorem covered (i : S8x2048x64.Idx) :
    ∃ t : Fin cfg0.N, (cfg0.win 3).flush t = true ∧ i ∈ ((cfg0.win 3).blk t).view.set := by
  have hi0 : (i 0).val < 8 := (i 0).isLt
  have hi1 : (i 1).val < 2048 := (i 1).isLt
  have hi2 : (i 2).val < 64 := (i 2).isLt
  have hN : (i 0).val < cfg0.N := lt_of_lt_of_eq hi0 N_0.symm
  refine ⟨⟨(i 0).val, hN⟩, flush0_3 _, ?_⟩
  rw [mem_block]
  obtain ⟨-, -, -, -, -, -, -, -, e0, e1, e2⟩ := block_indices ⟨(i 0).val, hN⟩
  intro a
  match a with
  | ⟨0, _⟩ =>
    show win0_3.index ⟨(i 0).val, hN⟩ (0 : Fin 3) * 1 ≤ (i 0).val ∧ (i 0).val < win0_3.index ⟨(i 0).val, hN⟩ (0 : Fin 3) * 1 + 1
    rw [e0]; show (i 0).val * 1 ≤ (i 0).val ∧ (i 0).val < (i 0).val * 1 + 1; omega
  | ⟨1, _⟩ =>
    show win0_3.index ⟨(i 0).val, hN⟩ (1 : Fin 3) * 2048 ≤ (i 1).val ∧ (i 1).val < win0_3.index ⟨(i 0).val, hN⟩ (1 : Fin 3) * 2048 + 2048
    rw [e1]; omega
  | ⟨2, _⟩ =>
    show win0_3.index ⟨(i 0).val, hN⟩ (2 : Fin 3) * 64 ≤ (i 2).val ∧ (i 2).val < win0_3.index ⟨(i 0).val, hN⟩ (2 : Fin 3) * 64 + 64
    rw [e2]; omega

/-- After the run the result array is the batch function of the argument arrays as launched. -/
theorem final (c : Dev nD) :
    (dats m 0 c).arrAt 3 cfg0.N
      = Cert.Gcn.batchScaled (m ((c : Thread nD τ).loc main_arg0)) (m ((c : Thread nD τ).loc main_arg1))
          (m ((c : Thread nD τ).loc main_arg2)) :=
  (dats m 0 c).arrAt_eq_of_cover 3 _ (fun t _ => flushed_eq m c t) covered

/-- The kernel's run with its result array named as that function, the arguments unchanged. -/
theorem run : θ_run defs (onTc (τ := τ) (main (F := Ideal))) ⟨m, fun _ => 0, ρ⟩ fun r => ∀ c : Dev nD,
      r.2.mem ((c : Thread nD τ).loc main_v0)
        = Cert.Gcn.batchScaled (m ((c : Thread nD τ).loc main_arg0)) (m ((c : Thread nD τ).loc main_arg1))
            (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.KernelIdeal.ArrayValue

end
-- ==== Proof.ReferenceValue.lean ====
/-
  What the reference computes, entry by entry.

  The reference works on the whole batch at once. Read at an index, its stages are: the edge weights
  exp(γ · D(b, n, m)); their sums over m from the initial value zero (the degrees, 8 × 2048); the inverse square
  roots 1 / √deg; the edge weights multiplied by the inverse square root of the row's degree and then by that of the
  column's degree (the two broadcasts of the 8 × 2048 array along the last and the middle axis); the batched product
  with the features (a sum over the 2048 neighbours); and the product with the weights (a sum over the 64 features).
  So the result at (b, n, o) is graph b's output at (n, o) in the arrangement that normalises the edge weights first.
-/
import proofs.«141549_j6777458393356_2_alg».proof.Proof.Gen.ReferenceIdeal.Read
import proofs.«141549_j6777458393356_2_alg».proof.Proof.Batched

noncomputable section

namespace Cert.ReferenceIdeal.RefValue

open Cert.ReferenceIdeal Cert.ReferenceIdeal.Gen Cert.ReferenceIdeal.Read
open Idealize.ShloMosaic Idealize.ShloMosaic.ValueIdx Cert.Gcn
open scoped BigOperators

variable (X : (⟨S8x2048x64, .f32⟩ : BufTy).Contents (Elt Ideal)) (D : (⟨S8x2048x2048, .f32⟩ : BufTy).Contents (Elt Ideal))
  (W : (⟨S64x64, .f32⟩ : BufTy).Contents (Elt Ideal))

/-- The edge-weight stage at (b, n, m) is graph b's e(n, m). -/
theorem edge_stage (b : Fin 8) (n m : Fin 2048) : val_main_v2 (F := Ideal) D (ix3 b n m) = edge (distOf D b) n m := by
  rw [val_main_v2_apply, val_main_v1_apply, val_main_v0_apply, val_main_cst_apply]
  rfl

/-- The sum stage at (b, n) is graph b's deg(n): the initial value is zero. -/
theorem degree_stage (b : Fin 8) (n : Fin 2048) : val_main_v3 (F := Ideal) D (ix2 b n) = degree (distOf D b) n := by
  rw [val_main_v3_apply, val_main_cst_0_apply]
  refine (congrArg (· + _) Ideal.ofBits_zero_f32).trans ((zero_add _).trans ?_)
  exact Finset.sum_congr rfl fun m _ =>
    (congrArg (val_main_v2 (F := Ideal) D)
      (funext fun a => Fin.ext (by match a with | ⟨0, _⟩ => rfl | ⟨1, _⟩ => rfl | ⟨2, _⟩ => rfl))).trans (edge_stage D b n m)

/-- The quotient stage at (b, n) is graph b's s(n). -/
theorem invSqrt_stage (b : Fin 8) (n : Fin 2048) : val_main_v6 (F := Ideal) D (ix2 b n) = invSqrtDeg (distOf D b) n := by
  rw [val_main_v6_apply, val_main_v5_apply, val_main_cst_1_apply, val_main_v4_apply, degree_stage]
  rfl

/-- The doubly normalised edge weights at (b, n, m): (e(n, m) · s(n)) · s(m). -/
theorem normed_stage (b : Fin 8) (n m : Fin 2048) :
    val_main_v12 (F := Ideal) D (ix3 b n m)
      = (edge (distOf D b) n m * invSqrtDeg (distOf D b) n) * invSqrtDeg (distOf D b) m := by
  have hrow : idx_main_v7 (idx_main_v8 (ix3 b n m)) = ix2 b n :=
    funext fun a => Fin.ext (by match a with | ⟨0, _⟩ => rfl | ⟨1, _⟩ => rfl)
  have hcol : idx_main_v10 (idx_main_v11 (ix3 b n m)) = ix2 b m :=
    funext fun a => Fin.ext (by match a with | ⟨0, _⟩ => rfl | ⟨1, _⟩ => rfl)
  rw [val_main_v12_apply, val_main_v9_apply, val_main_v8_apply, val_main_v7_apply, val_main_v11_apply,
    val_main_v10_apply, hrow, hcol, edge_stage, invSqrt_stage, invSqrt_stage]
  rfl

/-- The batched product at (b, n, f) is graph b's hidden layer, edge weights normalised first. -/
theorem hidden_stage (b : Fin 8) (n : Fin 2048) (f : Fin 64) :
    val_main_v13 (F := Ideal) X D (ix3 b n f) = hNormed (distOf D b) (featOf X b) n f := by
  rw [val_main_v13_apply]
  exact Finset.sum_congr rfl fun m _ => congrArg₂ (· * ·)
    ((congrArg (val_main_v12 (F := Ideal) D)
      (funext fun a => Fin.ext (by match a with | ⟨0, _⟩ => rfl | ⟨1, _⟩ => rfl | ⟨2, _⟩ => rfl))).trans (normed_stage D b n m))
    (congrArg X (funext fun a => Fin.ext (by match a with | ⟨0, _⟩ => rfl | ⟨1, _⟩ => rfl | ⟨2, _⟩ => rfl)))

/-- The result at (b, n, o) is graph b's output at (n, o). -/
theorem result_stage (b : Fin 8) (n : Fin 2048) (o : Fin 64) :
    val_main_v14 (F := Ideal) X D W (ix3 b n o) = outNormed (distOf D b) (featOf X b) (wtsOf W) n o := by
  rw [val_main_v14_apply]
  exact Finset.sum_congr rfl fun f _ => congrArg₂ (· * ·)
    ((congrArg (val_main_v13 (F := Ideal) X D)
      (funext fun a => Fin.ext (by match a with | ⟨0, _⟩ => rfl | ⟨1, _⟩ => rfl | ⟨2, _⟩ => rfl))).trans (hidden_stage X D b n f))
    (congrArg W (funext fun a => Fin.ext (by match a with | ⟨0, _⟩ => rfl | ⟨1, _⟩ => rfl)))

/-- The reference's result array is the batch function that normalises the edge weights first. -/
theorem result_eq : val_main_v14 (F := Ideal) X D W = batchNormed X D W :=
  funext fun i => by
    obtain ⟨b, n, o, rfl⟩ : ∃ (b : Fin 8) (n : Fin 2048) (o : Fin 64), i = ix3 b n o := ⟨i 0, i 1, i 2, eq_ix3 i⟩
    exact result_stage X D W b n o

end Cert.ReferenceIdeal.RefValue

end
-- ==== Proof.Finite.lean ====
/-
  The precondition says every entry of the three argument arrays is a real number.

  The precondition is the conjunction of three tests, one per array: all entries have absolute value below +∞.
  On the extended reals |x| = max x (-x), and max x (-x) < +∞ excludes both infinities, so x is the coercion of a
  real. Each test is a conjunction over all entries that equals one, so it holds at every entry.
-/
import proofs.«141549_j6777458393356_2_alg».proof.Pre_finite_inputs
import proofs.«141549_j6777458393356_2_alg».proof.Proof.Gen.Pre_finite_inputs
import Idealize.ShloMosaic.Lib.ReduceAll
import Idealize.ShloMosaic.Lib.ValueIdx
import Idealize.ShloMosaic.PureOps.Ideal.Laws

noncomputable section

namespace Cert.Pre_finite_inputs.Finite

open Idealize.ShloMosaic Cert.Pre_finite_inputs Cert.Pre_finite_inputs.Gen

instance : Subsingleton S_.Idx := ⟨fun a b => funext fun d => d.elim0⟩

/-- The single-precision pattern of +∞ is the top of the extended reals. -/
theorem inf_eq : Ideal.ofBits .f32 0x7F800000#32 = (⊤ : EReal) := by simp [Ideal.ofBits, Ideal.ieee]

/-- An extended real whose absolute value tests below +∞ is a real. -/
theorem real_of_abs_lt_inf (x : EReal)
    (h : Ideal.cmp .olt (max x (-x)) (Ideal.ofBits .f32 0x7F800000#32) = 1#1) : ∃ r : ℝ, x = (r : EReal) := by
  rw [inf_eq] at h
  induction x using EReal.rec with
  | bot => exact absurd h (by simp [Ideal.cmp])
  | top => exact absurd h (by simp [Ideal.cmp])
  | coe r => exact ⟨r, rfl⟩

/-- Under the precondition the first two arrays (and the third) hold reals only. -/
theorem real_of_pre (x0 : FVec Ideal S8x2048x64 .f32) (x1 : FVec Ideal S8x2048x2048 .f32) (x2 : FVec Ideal S64x64 .f32)
    (h : fn (F := Ideal) x0 x1 x2 = fun _ => 1#1) :
    (∀ i, ∃ r : ℝ, x0 i = (r : EReal)) ∧ (∀ i, ∃ r : ℝ, x1 i = (r : EReal)) := by
  have h0 := congrFun h ValueIdx.ix0
  dsimp only [fn] at h0
  obtain ⟨h01, -⟩ := IntOp.andi_eq_one.1 h0
  obtain ⟨ha, hb⟩ := IntOp.andi_eq_one.1 h01
  exact ⟨fun i => real_of_abs_lt_inf (x0 i) (Host.reduce_andi_all _ _ _ _ _ ha i),
    fun i => real_of_abs_lt_inf (x1 i) (Host.reduce_andi_all _ _ _ _ _ hb i)⟩

end Cert.Pre_finite_inputs.Finite

end
-- ==== Proof.lean ====
/-
  A distance-weighted graph convolution over a batch of eight graphs, fused into one kernel, against its reference.

  For each graph b, with distances D(b, n, m), features X(b, m, f) and shared weights W(f, o): the edge weights are
  e(n, m) = exp(γ · D(b, n, m)), the degrees deg(n) = Σ_m e(n, m), s(n) = 1 / √deg(n), and the result is
  Σ_f h(n, f) · W(f, o) with h = (diag s · E · diag s) · X(b).

  The kernel handles one graph per grid point and never forms the normalised edge matrix: it scales the features by
  s, multiplies by E, and scales the product by s again, h(n, f) = s(n) · Σ_m e(n, m) · (s(m) · X(b, m, f)). The reference
  normalises E on both sides first, h(n, f) = Σ_m ((e(n, m) · s(n)) · s(m)) · X(b, m, f). Over the extended reals the two
  agree when the distances and the features are finite: every edge weight is then a positive real, every degree a
  positive real, every s(n) a real, and the factor s(n) moves across the finite sum by distributivity in ℝ
  (Proof/Propagation.lean). The precondition gives exactly that finiteness (Proof/Finite.lean). The kernel's result
  array is read block by block from its run (Proof/BodyValue.lean: the body's value at an index; Proof/KernelValue.lean:
  the eight blocks make up the array), the reference's from its operations one at a time (Proof/ReferenceValue.lean).
  The idealized kernel is the printed kernel read at the exact values with nothing rewritten, so there is nothing to
  preserve beyond that; the three frames are the programs' runs with the results dropped.
-/
import proofs.«141549_j6777458393356_2_alg».proof.Defs
import proofs.«141549_j6777458393356_2_alg».proof.Proof.Gen.Kernel
import proofs.«141549_j6777458393356_2_alg».proof.Proof.Gen.Kernel.Skeleton
import proofs.«141549_j6777458393356_2_alg».proof.Proof.Gen.Kernel.Launch
import proofs.«141549_j6777458393356_2_alg».proof.Proof.Gen.Kernel.Points
import proofs.«141549_j6777458393356_2_alg».proof.Proof.Gen.Kernel.Frame
import proofs.«141549_j6777458393356_2_alg».proof.Proof.Gen.KernelIdeal
import proofs.«141549_j6777458393356_2_alg».proof.Proof.Gen.KernelIdeal.Skeleton
import proofs.«141549_j6777458393356_2_alg».proof.Proof.Gen.KernelIdeal.Launch
import proofs.«141549_j6777458393356_2_alg».proof.Proof.Gen.KernelIdeal.Points
import proofs.«141549_j6777458393356_2_alg».proof.Proof.Gen.KernelIdeal.Frame
import proofs.«141549_j6777458393356_2_alg».proof.Proof.Gen.ReferenceIdeal
import proofs.«141549_j6777458393356_2_alg».proof.Proof.Gen.KernelIdeal.Value
import proofs.«141549_j6777458393356_2_alg».proof.Proof.Gen.ReferenceIdeal.Run
import proofs.«141549_j6777458393356_2_alg».proof.Proof.Gen.ReferenceIdeal.Read
import proofs.«141549_j6777458393356_2_alg».proof.Proof.Gen.Pre_finite_inputs
import proofs.«141549_j6777458393356_2_alg».proof.Proof.KernelValue
import proofs.«141549_j6777458393356_2_alg».proof.Proof.ReferenceValue
import proofs.«141549_j6777458393356_2_alg».proof.Proof.Finite
import Idealize.ShloMosaic.Adequacy
import Idealize.ShloMosaic.Init

noncomputable section

namespace Cert.Proof

open Idealize.ShloMosaic Idealize.ShloMosaic.TcCoe Idealize.SL.Sem

/-- The printed kernel runs and leaves its arguments as they were. -/
theorem frame_kernel : Cert.frame_Kernel := fun m ρ _ => Cert.Kernel.Gen.frame m ρ

/-- So does the kernel read at the exact values. -/
theorem frame_kernelIdeal : Cert.frame_KernelIdeal := fun m ρ _ => Cert.KernelIdeal.Gen.frame m ρ

/-- The reference runs and leaves its arguments as they were: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten between the printed kernel and its reading at the exact values. -/
theorem preserves : Cert.preserves_Kernel_KernelIdeal := trivial

/-- From memories that agree on the arguments, both programs end with the batch's propagation: the kernel with the
    features scaled first, the reference with the edge weights normalised first, equal on the finite inputs the
    precondition grants. -/
theorem algebraic : Cert.algebraic_KernelIdeal_ReferenceIdeal := by
  intro m ρ m' ρ' hpre hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.RefValue.result_eq, (hagree c).1, (hagree c).2.1,
    (hagree c).2.2]
  obtain ⟨hX, hD⟩ := Cert.Pre_finite_inputs.Finite.real_of_pre _ _ _ (hpre c)
  exact (Cert.Gcn.batchScaled_eq_batchNormed _ _ _ hX hD).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
